-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x425x76x76 : Shape := ⟨4, ![16, 425, 76, 76]⟩
abbrev S_ : Shape := ⟨0, ![]⟩

class Facts : Prop where
  bcast_S_S16x425x76x76 : S_.BroadcastsInDim S16x425x76x76 (![] : Fin 0 → Fin S16x425x76x76.rank)
  reducesTo_S16x425x76x76_S_d0_1_2_3 : S16x425x76x76.ReducesTo [0, 1, 2, 3] S_
  h_S_ : 0 < S_.numel

variable [Facts]

def fn {F : FTy → Type} [FloatOps F] (main_arg0 : FVec F S16x425x76x76 .f32) : IVec S_ 1 :=
  let main_v0 : FVec F S16x425x76x76 .f32 := Host.absf main_arg0
  let main_cst : FVec F S_ .f32 := constant S_ .f32 0x7F800000#32
  let main_v1 : FVec F S16x425x76x76 .f32 := broadcastInDim S16x425x76x76 ![] bcast_S_S16x425x76x76 main_cst
  let main_v2 : IVec S16x425x76x76 1 := cmpf .olt main_v0 main_v1
  let main_c : IVec S_ 1 := constantI S_ 1 1#1
  let main_v3 : IVec S_ 1 := (fun x v => Host.reduce IntOp.andi x v reducesTo_S16x425x76x76_S_d0_1_2_3 h_S_) main_v2 main_c
  main_v3
-- ==== Kernel.lean ====
abbrev S16x425x76x76 : Shape := ⟨4, ![16, 425, 76, 76]⟩
abbrev S16x5x85x5776 : Shape := ⟨4, ![16, 5, 85, 5776]⟩
abbrev S16x5x83x5776 : Shape := ⟨4, ![16, 5, 83, 5776]⟩
abbrev S2x1x85x5776 : Shape := ⟨4, ![2, 1, 85, 5776]⟩
abbrev S2x1x83x5776 : Shape := ⟨4, ![2, 1, 83, 5776]⟩
abbrev S2x85x5776 : Shape := ⟨3, ![2, 85, 5776]⟩
abbrev S2x2x5776 : Shape := ⟨3, ![2, 2, 5776]⟩
abbrev S2x1x5776 : Shape := ⟨3, ![2, 1, 5776]⟩
abbrev S2x80x5776 : Shape := ⟨3, ![2, 80, 5776]⟩
abbrev S2x5776 : Shape := ⟨2, ![2, 5776]⟩
abbrev S2x1x2x5776 : Shape := ⟨4, ![2, 1, 2, 5776]⟩
abbrev S2x1x1x5776 : Shape := ⟨4, ![2, 1, 1, 5776]⟩
abbrev S2x1x80x5776 : Shape := ⟨4, ![2, 1, 80, 5776]⟩
abbrev S16x415x76x76 : Shape := ⟨4, ![16, 415, 76, 76]⟩

abbrev nBuf : Space → Nat
  | .hbm => 4
  | .vmem => 4
  | .smem => 0
  | _ => 0

abbrev bufTy : (tb : Table) → Fin (tcTables nBuf tb) → BufTy
  | .hbm, ⟨0, _⟩ => ⟨S16x425x76x76, .f32⟩
  | .hbm, ⟨1, _⟩ => ⟨S16x5x85x5776, .f32⟩
  | .hbm, ⟨2, _⟩ => ⟨S16x5x83x5776, .f32⟩
  | .hbm, ⟨3, _⟩ => ⟨S16x415x76x76, .f32⟩
  | .local _ .vmem, ⟨0, _⟩ => ⟨S2x1x85x5776, .f32⟩
  | .local _ .vmem, ⟨1, _⟩ => ⟨S2x1x85x5776, .f32⟩
  | .local _ .vmem, ⟨2, _⟩ => ⟨S2x1x83x5776, .f32⟩
  | .local _ .vmem, ⟨3, _⟩ => ⟨S2x1x83x5776, .f32⟩
  | _, _ => ⟨S16x425x76x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 5], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x1x85x5776 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x83x5776 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x425x76x76_S16x5x85x5776 : S16x425x76x76.ShapeCasts S16x5x85x5776
  inb_S2x1x85x5776_S2x1x85x5776_0_0_0_0 : ∀ a, (![0, 0, 0, 0] : Fin 4 → Nat) a + S2x1x85x5776.size a ≤ S2x1x85x5776.size a
  h_S2x1x85x5776 : 0 < S2x1x85x5776.numel
  shapeCasts_S2x1x85x5776_S2x85x5776 : S2x1x85x5776.ShapeCasts S2x85x5776
  slices_S2x85x5776_o0_0_0_S2x2x5776 : S2x85x5776.Slices ![0, 0, 0] S2x2x5776
  slices_S2x85x5776_o0_4_0_S2x1x5776 : S2x85x5776.Slices ![0, 4, 0] S2x1x5776
  slices_S2x85x5776_o0_5_0_S2x80x5776 : S2x85x5776.Slices ![0, 5, 0] S2x80x5776
  reduces_S2x80x5776_S2x5776 : S2x80x5776.Reduces [1] S2x5776
  shapeCasts_S2x5776_S2x1x5776 : S2x5776.ShapeCasts S2x1x5776
  broadcasts_S2x1x5776_S2x80x5776 : S2x1x5776.Broadcasts S2x80x5776
  inb_S2x1x83x5776_S2x1x2x5776_0_0_0_0 : ∀ a, (![0, 0, 0, 0] : Fin 4 → Nat) a + S2x1x2x5776.size a ≤ S2x1x83x5776.size a
  h_S2x1x2x5776 : 0 < S2x1x2x5776.numel
  shapeCasts_S2x1x2x5776_S2x2x5776 : S2x1x2x5776.ShapeCasts S2x2x5776
  shapeCasts_S2x2x5776_S2x1x2x5776 : S2x2x5776.ShapeCasts S2x1x2x5776
  inb_S2x1x83x5776_S2x1x1x5776_0_0_2_0 : ∀ a, (![0, 0, 2, 0] : Fin 4 → Nat) a + S2x1x1x5776.size a ≤ S2x1x83x5776.size a
  h_S2x1x1x5776 : 0 < S2x1x1x5776.numel
  shapeCasts_S2x1x1x5776_S2x1x5776 : S2x1x1x5776.ShapeCasts S2x1x5776
  shapeCasts_S2x1x5776_S2x1x1x5776 : S2x1x5776.ShapeCasts S2x1x1x5776
  inb_S2x1x83x5776_S2x1x80x5776_0_0_3_0 : ∀ a, (![0, 0, 3, 0] : Fin 4 → Nat) a + S2x1x80x5776.size a ≤ S2x1x83x5776.size a
  h_S2x1x80x5776 : 0 < S2x1x80x5776.numel
  shapeCasts_S2x1x80x5776_S2x80x5776 : S2x1x80x5776.ShapeCasts S2x80x5776
  shapeCasts_S2x80x5776_S2x1x80x5776 : S2x80x5776.ShapeCasts S2x1x80x5776
  shapeCasts_S16x5x83x5776_S16x415x76x76 : S16x5x83x5776.ShapeCasts S16x415x76x76
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x85x5776.size a ≤ S16x5x85x5776.size a
  hwx0_0 : ∀ i : grid0.Coords, EltTy.bits .f32 = 32 ∨ (Rect.block (s := S16x5x85x5776) S2x1x85x5776.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x83x5776.size a ≤ S16x5x83x5776.size a
  hwx0_1 : ∀ i : grid0.Coords, EltTy.bits .f32 = 32 ∨ (Rect.block (s := S16x5x83x5776) S2x1x83x5776.size (cc0_transform_1 i) (hinb0_1 i)).WholeWords (EltTy.packing .f32)

variable [Facts₀]

abbrev win0_0 : Pipeline.Window sig grid0 :=
  Pipeline.Window.ofSpec (Memref.whole main_v0) S2x1x85x5776.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x1x83x5776.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x425x76x76 : Shape := ⟨4, ![16, 425, 76, 76]⟩
abbrev S16x5x85x76x76 : Shape := ⟨5, ![16, 5, 85, 76, 76]⟩
abbrev S16x5x2x76x76 : Shape := ⟨5, ![16, 5, 2, 76, 76]⟩
abbrev S_ : Shape := ⟨0, ![]⟩
abbrev S16x5x1x76x76 : Shape := ⟨5, ![16, 5, 1, 76, 76]⟩
abbrev S16x5x80x76x76 : Shape := ⟨5, ![16, 5, 80, 76, 76]⟩
abbrev S16x5x76x76 : Shape := ⟨4, ![16, 5, 76, 76]⟩
abbrev S16x5x83x76x76 : Shape := ⟨5, ![16, 5, 83, 76, 76]⟩
abbrev S16x415x76x76 : Shape := ⟨4, ![16, 415, 76, 76]⟩

abbrev nBuf : Space → Nat
  | .hbm => 37
  | .vmem => 0
  | .smem => 0
  | _ => 0

abbrev bufTy : (tb : Table) → Fin (tcTables nBuf tb) → BufTy
  | .hbm, ⟨0, _⟩ => ⟨S16x425x76x76, .f32⟩
  | .hbm, ⟨1, _⟩ => ⟨S16x5x85x76x76, .f32⟩
  | .hbm, ⟨2, _⟩ => ⟨S16x5x2x76x76, .f32⟩
  | .hbm, ⟨3, _⟩ => ⟨S16x5x2x76x76, .f32⟩
  | .hbm, ⟨4, _⟩ => ⟨S16x5x2x76x76, .f32⟩
  | .hbm, ⟨5, _⟩ => ⟨S_, .f32⟩
  | .hbm, ⟨6, _⟩ => ⟨S16x5x2x76x76, .f32⟩
  | .hbm, ⟨7, _⟩ => ⟨S16x5x2x76x76, .f32⟩
  | .hbm, ⟨8, _⟩ => ⟨S_, .f32⟩
  | .hbm, ⟨9, _⟩ => ⟨S16x5x2x76x76, .f32⟩
  | .hbm, ⟨10, _⟩ => ⟨S16x5x2x76x76, .f32⟩
  | .hbm, ⟨11, _⟩ => ⟨S16x5x1x76x76, .f32⟩
  | .hbm, ⟨12, _⟩ => ⟨S16x5x1x76x76, .f32⟩
  | .hbm, ⟨13, _⟩ => ⟨S16x5x1x76x76, .f32⟩
  | .hbm, ⟨14, _⟩ => ⟨S_, .f32⟩
  | .hbm, ⟨15, _⟩ => ⟨S16x5x1x76x76, .f32⟩
  | .hbm, ⟨16, _⟩ => ⟨S16x5x1x76x76, .f32⟩
  | .hbm, ⟨17, _⟩ => ⟨S_, .f32⟩
  | .hbm, ⟨18, _⟩ => ⟨S16x5x1x76x76, .f32⟩
  | .hbm, ⟨19, _⟩ => ⟨S16x5x1x76x76, .f32⟩
  | .hbm, ⟨20, _⟩ => ⟨S16x5x80x76x76, .f32⟩
  | .hbm, ⟨21, _⟩ => ⟨S_, .f32⟩
  | .hbm, ⟨22, _⟩ => ⟨S16x5x76x76, .f32⟩
  | .hbm, ⟨23, _⟩ => ⟨S_, .f32⟩
  | .hbm, ⟨24, _⟩ => ⟨S16x5x76x76, .f32⟩
  | .hbm, ⟨25, _⟩ => ⟨S16x5x76x76, .f32⟩
  | .hbm, ⟨26, _⟩ => ⟨S16x5x1x76x76, .f32⟩
  | .hbm, ⟨27, _⟩ => ⟨S16x5x80x76x76, .f32⟩
  | .hbm, ⟨28, _⟩ => ⟨S16x5x80x76x76, .f32⟩
  | .hbm, ⟨29, _⟩ => ⟨S16x5x80x76x76, .f32⟩
  | .hbm, ⟨30, _⟩ => ⟨S_, .f32⟩
  | .hbm, ⟨31, _⟩ => ⟨S16x5x76x76, .f32⟩
  | .hbm, ⟨32, _⟩ => ⟨S16x5x1x76x76, .f32⟩
  | .hbm, ⟨33, _⟩ => ⟨S16x5x80x76x76, .f32⟩
  | .hbm, ⟨34, _⟩ => ⟨S16x5x80x76x76, .f32⟩
  | .hbm, ⟨35, _⟩ => ⟨S16x5x83x76x76, .f32⟩
  | .hbm, ⟨36, _⟩ => ⟨S16x415x76x76, .f32⟩
  | _, _ => ⟨S16x425x76x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_5 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]

class Facts₀ : Prop where
  shapeCasts_S16x425x76x76_S16x5x85x76x76 : S16x425x76x76.ShapeCasts S16x5x85x76x76
  slices_S16x5x85x76x76_S16x5x2x76x76_0_0_0_0_0 : S16x5x85x76x76.Slices ![0, 0, 0, 0, 0] S16x5x2x76x76
  bcast_S_S16x5x2x76x76 : S_.BroadcastsInDim S16x5x2x76x76 (![] : Fin 0 → Fin S16x5x2x76x76.rank)
  slices_S16x5x85x76x76_S16x5x1x76x76_0_0_4_0_0 : S16x5x85x76x76.Slices ![0, 0, 4, 0, 0] S16x5x1x76x76
  bcast_S_S16x5x1x76x76 : S_.BroadcastsInDim S16x5x1x76x76 (![] : Fin 0 → Fin S16x5x1x76x76.rank)
  slices_S16x5x85x76x76_S16x5x80x76x76_0_0_5_0_0 : S16x5x85x76x76.Slices ![0, 0, 5, 0, 0] S16x5x80x76x76
  reducesTo_S16x5x80x76x76_S16x5x76x76_d2 : S16x5x80x76x76.ReducesTo [2] S16x5x76x76
  h_S_ : 0 < S_.numel
  bcast_S_S16x5x76x76 : S_.BroadcastsInDim S16x5x76x76 (![] : Fin 0 → Fin S16x5x76x76.rank)
  bcast_S16x5x76x76_S16x5x1x76x76_0_1_3_4 : S16x5x76x76.BroadcastsInDim S16x5x1x76x76 (![0, 1, 3, 4] : Fin 4 → Fin S16x5x1x76x76.rank)
  bcast_S16x5x1x76x76_S16x5x80x76x76_0_1_2_3_4 : S16x5x1x76x76.BroadcastsInDim S16x5x80x76x76 (![0, 1, 2, 3, 4] : Fin 5 → Fin S16x5x80x76x76.rank)
  concatenates_S16x5x2x76x76_S16x5x1x76x76_S16x5x80x76x76_S16x5x83x76x76_d2 : Shape.Concatenates [S16x5x2x76x76, S16x5x1x76x76, S16x5x80x76x76] S16x5x83x76x76 2
  shapeCasts_S16x5x83x76x76_S16x415x76x76 : S16x5x83x76x76.ShapeCasts S16x415x76x76

variable [Facts₀]

class Facts : Prop extends Facts₀ where

variable [Facts]
-- ==== Proof.Spec.lean ====
/-
  What both programs compute. Per anchor and pixel, of the anchor's 85 input channels z₀ … z₈₄ the 83 outputs are
    out₀ = σ(z₀),  out₁ = σ(z₁),  out₂ = σ(z₄),  out₍₃₊ₖ₎ = e^(z₍₅₊ₖ₎ − M) / Σⱼ e^(z₍₅₊ⱼ₎ − M)   (k, j < 80),
  with σ(x) = 1 / (1 + e^(−x)) and M the maximum of the 80 logits z₅ … z₈₄, all on the extended reals. Channels 2 and 3
  of an anchor are dropped. The result array [16, 415, 76, 76] at (b, c, h, w) is output c mod 83 of anchor c div 83 at
  pixel (h, w) of batch entry b, and that anchor's input j is the argument's channel 85·(c div 83) + j at the same pixel.
  The same function is stated twice more over arrays whose two pixel axes are flattened into one axis of 5776 = 76·76
  (the whole arrays [16, 5, 85, 5776] → [16, 5, 83, 5776], and one block [2, 1, 85, 5776] → [2, 1, 83, 5776] of them).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The maximum of the 80 logits, folded from −∞ (the f32 pattern `0xFF800000`). -/
def top (z : Fin 80 → EReal) : EReal :=
  (Finset.univ : Finset (Fin 80)).fold max (Ideal.ofBits .f32 0xFF800000#32) z

/-- The softmax weight of logit `k` among the 80. -/
def soft (z : Fin 80 → EReal) (k : Fin 80) : EReal :=
  Ideal.div (Ideal.exp (z k - top z)) (∑ j : Fin 80, Ideal.exp (z j - top z))

/-- The logits of an anchor: its input channels 5 … 84. -/
def logits (z : Fin 85 → EReal) : Fin 80 → EReal :=
  fun j => z ⟨5 + j.val, by have := j.isLt; omega⟩

/-- One anchor at one pixel: output `k` of the 83, from the 85 inputs. -/
def chan (z : Fin 85 → EReal) (k : Fin 83) : EReal :=
  if h : k.val < 2 then Ideal.logistic (z ⟨k.val, by omega⟩)
  else if k.val = 2 then Ideal.logistic (z ⟨4, by omega⟩)
  else soft (logits z) ⟨k.val - 3, by have := k.isLt; omega⟩

theorem chan_of_lt_two (z : Fin 85 → EReal) (k : Fin 83) (h : k.val < 2) :
    chan z k = Ideal.logistic (z ⟨k.val, by omega⟩) := dif_pos h

theorem chan_of_eq_two (z : Fin 85 → EReal) (k : Fin 83) (h : k.val = 2) :
    chan z k = Ideal.logistic (z ⟨4, by omega⟩) := by
  unfold chan
  rw [dif_neg (by omega), if_pos h]

theorem chan_of_three_le (z : Fin 85 → EReal) (k : Fin 83) (h : 3 ≤ k.val) :
    chan z k = soft (logits z) ⟨k.val - 3, by have := k.isLt; omega⟩ := by
  unfold chan
  rw [dif_neg (by omega), if_neg (by omega)]

/-- −∞ is neutral for the maximum. -/
theorem neg_inf_max (y : EReal) : max (Ideal.ofBits .f32 0xFF800000#32) y = y := by
  simp [Ideal.ofBits, Ideal.ieee]

/-- The result array at batch entry `b`, channel `c`, pixel `(h, w)`. -/
def outAt (x : (⟨4, ![16, 425, 76, 76]⟩ : Shape).Idx → EReal) (b : Fin 16) (c : Fin 415) (h w : Fin 76) : EReal :=
  chan (fun j : Fin 85 => x (ix4 b (⟨c.val / 83 * 85 + j.val, by have := c.isLt; have := j.isLt; omega⟩ : Fin 425) h w))
    ⟨c.val % 83, Nat.mod_lt _ (by decide)⟩

/-- The result array as a function of the argument array. -/
def out (x : (⟨4, ![16, 425, 76, 76]⟩ : Shape).Idx → EReal) : (⟨4, ![16, 415, 76, 76]⟩ : Shape).Idx → EReal :=
  fun i => outAt x (i 0) (i 1) (i 2) (i 3)

/-- The same over the arrays with the pixel axes flattened: anchor `a` of batch entry `b` at flat pixel `p`. -/
def flat (y : (⟨4, ![16, 5, 85, 5776]⟩ : Shape).Idx → EReal) : (⟨4, ![16, 5, 83, 5776]⟩ : Shape).Idx → EReal :=
  fun i => chan (fun j : Fin 85 => y (ix4 (i 0) (i 1) j (i 3))) (i 2)

/-- The same over one block of two batch entries and one anchor. -/
def block (y : (⟨4, ![2, 1, 85, 5776]⟩ : Shape).Idx → EReal) : (⟨4, ![2, 1, 83, 5776]⟩ : Shape).Idx → EReal :=
  fun i => chan (fun j : Fin 85 => y (ix4 (i 0) (i 1) j (i 3))) (i 2)

end Cert.Spec

end
-- ==== Proof.ReferenceValue.lean ====
/-
  The reference program's result, read index by index.

  The reference reshapes the argument [16, 425, 76, 76] to anchors [16, 5, 85, 76, 76], takes three slices along the
  channel axis (channels 0–1, channel 4, channels 5–84), maps the first two through 1 / (1 + e^(−z)) and the third
  through the softmax over the channel axis (the maximum folded from −∞, the exponentials of the differences, their
  sum from 0, the quotient), concatenates the three along the channel axis to [16, 5, 83, 76, 76] and reshapes to
  [16, 415, 76, 76]. Each stage is named here and read at an index given by its coordinates; the composition, at
  (b, c, h, w), is output c mod 83 of anchor c div 83 of the specification.
-/
import proofs.«144834_j5841155523216_2_alg».proof.Proof.ReferenceRun
import proofs.«144834_j5841155523216_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.TcCoe Idealize.ShloMosaic.ValueIdx Idealize.SL.Sem

/-! ## The stages -/

/-- The argument as anchors: [16, 425, 76, 76] read as [16, 5, 85, 76, 76]. -/
def anch (x : FVec Ideal S16x425x76x76 .f32) : FVec Ideal S16x5x85x76x76 .f32 :=
  shapeCast _ x shapeCasts_S16x425x76x76_S16x5x85x76x76

/-- 1 / (1 + e^(−v)), elementwise, the ones broadcast from a scalar. -/
def sigm (s : Shape) (hb : S_.BroadcastsInDim s (![] : Fin 0 → Fin s.rank)) (v : FVec Ideal s .f32) : FVec Ideal s .f32 :=
  Host.divf (F := Ideal) (broadcastInDim s ![] hb (constant (F := Ideal) S_ .f32 0x3F800000#32))
    (addf (F := Ideal) (broadcastInDim s ![] hb (constant (F := Ideal) S_ .f32 0x3F800000#32)) (Host.exp (F := Ideal) (Host.negf (F := Ideal) v)))

/-- The first piece: the logistic of channels 0 and 1. -/
def sig01 (x : FVec Ideal S16x425x76x76 .f32) : FVec Ideal S16x5x2x76x76 .f32 :=
  sigm S16x5x2x76x76 bcast_S_S16x5x2x76x76
    (extractStridedSlice S16x5x2x76x76 ![0, 0, 0, 0, 0] (anch x) slices_S16x5x85x76x76_S16x5x2x76x76_0_0_0_0_0)

/-- The second piece: the logistic of channel 4. -/
def sig4 (x : FVec Ideal S16x425x76x76 .f32) : FVec Ideal S16x5x1x76x76 .f32 :=
  sigm S16x5x1x76x76 bcast_S_S16x5x1x76x76
    (extractStridedSlice S16x5x1x76x76 ![0, 0, 4, 0, 0] (anch x) slices_S16x5x85x76x76_S16x5x1x76x76_0_0_4_0_0)

/-- The logits: channels 5 … 84. -/
def lg (x : FVec Ideal S16x425x76x76 .f32) : FVec Ideal S16x5x80x76x76 .f32 :=
  extractStridedSlice S16x5x80x76x76 ![0, 0, 5, 0, 0] (anch x) slices_S16x5x85x76x76_S16x5x80x76x76_0_0_5_0_0

/-- A per-anchor, per-pixel value put back on every logit channel. -/
def bc (y : FVec Ideal S16x5x76x76 .f32) : FVec Ideal S16x5x80x76x76 .f32 :=
  broadcastInDim S16x5x80x76x76 ![0, 1, 2, 3, 4] bcast_S16x5x1x76x76_S16x5x80x76x76_0_1_2_3_4
    (broadcastInDim S16x5x1x76x76 ![0, 1, 3, 4] bcast_S16x5x76x76_S16x5x1x76x76_0_1_3_4 y)

/-- The maximum of the logits over the channel axis, from −∞ (and once more against −∞). -/
def mx (x : FVec Ideal S16x425x76x76 .f32) : FVec Ideal S16x5x76x76 .f32 :=
  maximumf (F := Ideal) (broadcastInDim S16x5x76x76 ![] bcast_S_S16x5x76x76 (constant (F := Ideal) S_ .f32 0xFF800000#32))
    (Host.reduce FloatOps.maximumf (lg x) (constant (F := Ideal) S_ .f32 0xFF800000#32) reducesTo_S16x5x80x76x76_S16x5x76x76_d2 h_S_)

/-- The exponentials of the logits less their maximum. -/
def ex (x : FVec Ideal S16x425x76x76 .f32) : FVec Ideal S16x5x80x76x76 .f32 :=
  Host.exp (F := Ideal) (subf (F := Ideal) (lg x) (bc (mx x)))

/-- Their sum over the channel axis, from 0. -/
def sm (x : FVec Ideal S16x425x76x76 .f32) : FVec Ideal S16x5x76x76 .f32 :=
  Host.reduceAdd (F := Ideal) (ex x) (constant (F := Ideal) S_ .f32 0x00000000#32) reducesTo_S16x5x80x76x76_S16x5x76x76_d2 h_S_

/-- The third piece: the softmax of the logits. -/
def smx (x : FVec Ideal S16x425x76x76 .f32) : FVec Ideal S16x5x80x76x76 .f32 :=
  Host.divf (F := Ideal) (ex x) (bc (sm x))

/-- The whole result: the three pieces laid along the channel axis, read as [16, 415, 76, 76]. -/
def whole (x : FVec Ideal S16x425x76x76 .f32) : FVec Ideal S16x415x76x76 .f32 :=
  shapeCast _ (concatenate S16x5x83x76x76 2 [⟨S16x5x2x76x76, sig01 x⟩, ⟨S16x5x1x76x76, sig4 x⟩, ⟨S16x5x80x76x76, smx x⟩]
    concatenates_S16x5x2x76x76_S16x5x1x76x76_S16x5x80x76x76_S16x5x83x76x76_d2) shapeCasts_S16x5x83x76x76_S16x415x76x76

/-! ## The layout stages at an index -/

/-- Anchor `a`'s channel `j` is the argument's channel `85·a + j`. -/
theorem anch_apply (x : FVec Ideal S16x425x76x76 .f32) (b : Fin 16) (a : Fin 5) (j : Fin 85) (h w : Fin 76) (c : Fin 425)
    (hc : c.val = a.val * 85 + j.val) : anch x (ix5 b a j h w) = x (ix4 b c h w) := by
  refine shapeCast_apply x _ (ix5 b a j h w) (ix4 b c h w) ?_
  rw [Shape.rowMajor_val_five, Shape.rowMajor_val_four]
  show ((b.val * 425 + c.val) * 76 + h.val) * 76 + w.val = (((b.val * 5 + a.val) * 85 + j.val) * 76 + h.val) * 76 + w.val
  omega

/-- The logistic stage at an index. -/
theorem sigm_apply (s : Shape) (hb : S_.BroadcastsInDim s (![] : Fin 0 → Fin s.rank)) (v : FVec Ideal s .f32) (i : s.Idx) :
    sigm s hb v i = Ideal.logistic (v i) := by
  have h1 : broadcastInDim s ![] hb (constant (F := Ideal) S_ .f32 0x3F800000#32) i = 1 := by
    rw [broadcastInDim_scalar_apply]; exact Ideal.ofBits_one_f32
  show Ideal.div (broadcastInDim s ![] hb (constant (F := Ideal) S_ .f32 0x3F800000#32) i)
    (broadcastInDim s ![] hb (constant (F := Ideal) S_ .f32 0x3F800000#32) i + Ideal.exp (-(v i))) = _
  rw [h1]; rfl

/-- Channel `k` of the first slice is anchor channel `k`. -/
theorem slice01_apply (x : FVec Ideal S16x425x76x76 .f32) (b : Fin 16) (a : Fin 5) (k : Fin 2) (h w : Fin 76) (c : Fin 425)
    (hc : c.val = a.val * 85 + k.val) :
    extractStridedSlice S16x5x2x76x76 ![0, 0, 0, 0, 0] (anch x) slices_S16x5x85x76x76_S16x5x2x76x76_0_0_0_0_0 (ix5 b a k h w)
      = x (ix4 b c h w) := by
  refine (extractStridedSlice_apply _ (anch x) _ (ix5 b a k h w) (ix5 b a (⟨k.val, by omega⟩ : Fin 85) h w) ?_).trans
    (anch_apply x b a _ h w c hc)
  intro d
  match d with
  | ⟨0, _⟩ => show b.val = 0 + b.val; omega
  | ⟨1, _⟩ => show a.val = 0 + a.val; omega
  | ⟨2, _⟩ => show k.val = 0 + k.val; omega
  | ⟨3, _⟩ => show h.val = 0 + h.val; omega
  | ⟨4, _⟩ => show w.val = 0 + w.val; omega

/-- The second slice's one channel is anchor channel 4. -/
theorem slice4_apply (x : FVec Ideal S16x425x76x76 .f32) (b : Fin 16) (a : Fin 5) (k : Fin 1) (h w : Fin 76) (c : Fin 425)
    (hc : c.val = a.val * 85 + 4) :
    extractStridedSlice S16x5x1x76x76 ![0, 0, 4, 0, 0] (anch x) slices_S16x5x85x76x76_S16x5x1x76x76_0_0_4_0_0 (ix5 b a k h w)
      = x (ix4 b c h w) := by
  refine (extractStridedSlice_apply _ (anch x) _ (ix5 b a k h w) (ix5 b a (⟨4, by omega⟩ : Fin 85) h w) ?_).trans
    (anch_apply x b a _ h w c hc)
  intro d
  match d with
  | ⟨0, _⟩ => show b.val = 0 + b.val; omega
  | ⟨1, _⟩ => show a.val = 0 + a.val; omega
  | ⟨2, _⟩ => show 4 = 4 + k.val; omega
  | ⟨3, _⟩ => show h.val = 0 + h.val; omega
  | ⟨4, _⟩ => show w.val = 0 + w.val; omega

/-- Logit `k` is anchor channel `5 + k`. -/
theorem lg_apply (x : FVec Ideal S16x425x76x76 .f32) (b : Fin 16) (a : Fin 5) (k : Fin 80) (h w : Fin 76) (c : Fin 425)
    (hc : c.val = a.val * 85 + (5 + k.val)) : lg x (ix5 b a k h w) = x (ix4 b c h w) := by
  refine (extractStridedSlice_apply _ (anch x) _ (ix5 b a k h w) (ix5 b a (⟨5 + k.val, by omega⟩ : Fin 85) h w) ?_).trans
    (anch_apply x b a _ h w c hc)
  intro d
  match d with
  | ⟨0, _⟩ => show b.val = 0 + b.val; omega
  | ⟨1, _⟩ => show a.val = 0 + a.val; omega
  | ⟨2, _⟩ => show 5 + k.val = 5 + k.val; omega
  | ⟨3, _⟩ => show h.val = 0 + h.val; omega
  | ⟨4, _⟩ => show w.val = 0 + w.val; omega

/-- The value put back on the channel axis reads, on every channel, the value of its anchor and pixel. -/
theorem bc_apply (y : FVec Ideal S16x5x76x76 .f32) (b : Fin 16) (a : Fin 5) (k : Fin 80) (h w : Fin 76) :
    bc y (ix5 b a k h w) = y (ix4 b a h w) := by
  refine (broadcastInDim_apply _ _ _ (ix5 b a k h w) (ix5 b a (0 : Fin 1) h w) ?_).trans
    (broadcastInDim_apply _ _ y (ix5 b a (0 : Fin 1) h w) (ix4 b a h w) ?_)
  · intro d
    match d with
    | ⟨0, _⟩ => rfl
    | ⟨1, _⟩ => rfl
    | ⟨2, _⟩ => rfl
    | ⟨3, _⟩ => rfl
    | ⟨4, _⟩ => rfl
  · intro d
    match d with
    | ⟨0, _⟩ => rfl
    | ⟨1, _⟩ => rfl
    | ⟨2, _⟩ => rfl
    | ⟨3, _⟩ => rfl

/-! ## The two reductions at an index -/

/-- The reduced index (b, a, h, w) with channel `k` put back is (b, a, k, h, w). -/
theorem lift_ix (hr : S16x5x80x76x76.Reduces [2] S16x5x76x76) (b : Fin 16) (a : Fin 5) (h w : Fin 76)
    (k : Fin (S16x5x80x76x76.size 2)) : hr.lift (ix4 b a h w) k = ix5 b a (⟨k.val, k.isLt⟩ : Fin 80) h w := by
  funext c; apply Fin.ext
  fin_cases c <;> rfl

/-- The channel axis of the logits is dropped by both reductions. -/
theorem reduces_d2 : S16x5x80x76x76.Reduces [2] S16x5x76x76 := by decide

/-- The host's exponential at an index is the extended reals' exponential of the element. -/
theorem hostExp_apply {s : Shape} (v : FVec Ideal s .f32) (i : s.Idx) : Host.exp (F := Ideal) v i = Ideal.exp (v i) := rfl

/-- The maximum stage at (b, a, h, w) is the maximum of that anchor's 80 logits at that pixel, folded from −∞. -/
theorem mx_apply (x : FVec Ideal S16x425x76x76 .f32) (b : Fin 16) (a : Fin 5) (h w : Fin 76) :
    mx x (ix4 b a h w) = Cert.Spec.top (fun k : Fin 80 => lg x (ix5 b a k h w)) := by
  have hr : S16x5x80x76x76.Reduces [2] S16x5x76x76 := reduces_d2
  unfold mx
  refine (maximumf_apply _ _ _).trans ?_
  rw [broadcastInDim_scalar_apply, constant_apply, Cert.Spec.neg_inf_max]
  rw [Host.reduce_eq_fold_single FloatOps.maximumf (lg x) _ reducesTo_S16x5x80x76x76_S16x5x76x76_d2 hr h_S_]
  rw [constant_apply]
  have hf : (lg x ∘ hr.lift (ix4 b a h w)) = fun k : Fin 80 => lg x (ix5 b a k h w) :=
    funext fun k => congrArg (lg x) (lift_ix hr b a h w k)
  rw [hf]
  rfl

/-- The exponential stage at an index. -/
theorem ex_apply (x : FVec Ideal S16x425x76x76 .f32) (b : Fin 16) (a : Fin 5) (k : Fin 80) (h w : Fin 76) :
    ex x (ix5 b a k h w) = Ideal.exp (lg x (ix5 b a k h w) - mx x (ix4 b a h w)) := by
  unfold ex
  rw [hostExp_apply, subf_apply, bc_apply]

/-- The sum stage at (b, a, h, w) is the sum of that anchor's 80 exponentials at that pixel. -/
theorem sm_apply (x : FVec Ideal S16x425x76x76 .f32) (b : Fin 16) (a : Fin 5) (h w : Fin 76) :
    sm x (ix4 b a h w) = ∑ k : Fin 80, ex x (ix5 b a k h w) := by
  have hr : S16x5x80x76x76.Reduces [2] S16x5x76x76 := reduces_d2
  unfold sm
  rw [hostReduceAdd_apply, Ideal.hostReduceAdd_single _ hr, constant_apply, Ideal.ofBits_zero_f32, zero_add]
  exact Finset.sum_congr rfl fun k _ => congrArg (ex x) (lift_ix hr b a h w k)

/-- The softmax piece at an index is the softmax weight of that logit among its anchor's 80 at that pixel. -/
theorem smx_apply (x : FVec Ideal S16x425x76x76 .f32) (b : Fin 16) (a : Fin 5) (k : Fin 80) (h w : Fin 76) :
    smx x (ix5 b a k h w) = Cert.Spec.soft (fun j : Fin 80 => lg x (ix5 b a j h w)) k := by
  unfold smx
  rw [hostDivf_apply, bc_apply, sm_apply]
  simp only [ex_apply, mx_apply]
  rfl

/-! ## The whole result at an index -/

/-- The result at (b, c, h, w) is output `c mod 83` of anchor `c div 83` at pixel (h, w) of batch entry `b`. -/
theorem whole_apply (x : FVec Ideal S16x425x76x76 .f32) (b : Fin 16) (c : Fin 415) (h w : Fin 76) :
    whole x (ix4 b c h w) = Cert.Spec.outAt x b c h w := by
  have hc := c.isLt
  have ha : c.val / 83 < 5 := by omega
  have hk : c.val % 83 < 83 := by omega
  -- the reshape: position (b, c, h, w) of [16, 415, 76, 76] is position (b, c div 83, c mod 83, h, w) of [16, 5, 83, 76, 76]
  have hcast : whole x (ix4 b c h w)
      = concatenate S16x5x83x76x76 2 [⟨S16x5x2x76x76, sig01 x⟩, ⟨S16x5x1x76x76, sig4 x⟩, ⟨S16x5x80x76x76, smx x⟩]
          concatenates_S16x5x2x76x76_S16x5x1x76x76_S16x5x80x76x76_S16x5x83x76x76_d2 (ix5 b (⟨c.val / 83, ha⟩ : Fin 5) (⟨c.val % 83, hk⟩ : Fin 83) h w) := by
    refine shapeCast_apply _ _ (ix4 b c h w) (ix5 b (⟨c.val / 83, ha⟩ : Fin 5) (⟨c.val % 83, hk⟩ : Fin 83) h w) ?_
    rw [Shape.rowMajor_val_five, Shape.rowMajor_val_four]
    show (((b.val * 5 + c.val / 83) * 83 + c.val % 83) * 76 + h.val) * 76 + w.val
      = ((b.val * 415 + c.val) * 76 + h.val) * 76 + w.val
    omega
  rw [hcast]
  unfold Cert.Spec.outAt
  by_cases h2 : c.val % 83 < 2
  · -- channels 0 and 1: the first piece
    rw [Cert.Spec.chan_of_lt_two _ _ h2]
    refine (concatenate_apply_piece 2 ([⟨S16x5x2x76x76, sig01 x⟩, ⟨S16x5x1x76x76, sig4 x⟩, ⟨S16x5x80x76x76, smx x⟩] : List ((s : Shape) × (s.Idx → Ideal .f32))) concatenates_S16x5x2x76x76_S16x5x1x76x76_S16x5x80x76x76_S16x5x83x76x76_d2 _ 0 (by simp) S16x5x2x76x76 (sig01 x) rfl rfl 0 rfl
      (ix5 b (⟨c.val / 83, ha⟩ : Fin 5) (⟨c.val % 83, h2⟩ : Fin 2) h w) ?_ ?_).trans ?_
    · intro d
      match d with
      | ⟨0, _⟩ => exact fun _ => rfl
      | ⟨1, _⟩ => exact fun _ => rfl
      | ⟨2, _⟩ => exact fun hne => absurd rfl hne
      | ⟨3, _⟩ => exact fun _ => rfl
      | ⟨4, _⟩ => exact fun _ => rfl
    · show 0 + c.val % 83 = c.val % 83
      omega
    · exact (sigm_apply _ _ _ _).trans (congrArg Ideal.logistic
        (slice01_apply x b ⟨c.val / 83, ha⟩ ⟨c.val % 83, h2⟩ h w _ rfl))
  · by_cases h3 : c.val % 83 = 2
    · -- channel 2: the second piece
      rw [Cert.Spec.chan_of_eq_two _ _ h3]
      refine (concatenate_apply_piece 2 ([⟨S16x5x2x76x76, sig01 x⟩, ⟨S16x5x1x76x76, sig4 x⟩, ⟨S16x5x80x76x76, smx x⟩] : List ((s : Shape) × (s.Idx → Ideal .f32))) concatenates_S16x5x2x76x76_S16x5x1x76x76_S16x5x80x76x76_S16x5x83x76x76_d2 _ 1 (by simp) S16x5x1x76x76 (sig4 x) rfl rfl 2 rfl
        (ix5 b (⟨c.val / 83, ha⟩ : Fin 5) (0 : Fin 1) h w) ?_ ?_).trans ?_
      · intro d
        match d with
        | ⟨0, _⟩ => exact fun _ => rfl
        | ⟨1, _⟩ => exact fun _ => rfl
        | ⟨2, _⟩ => exact fun hne => absurd rfl hne
        | ⟨3, _⟩ => exact fun _ => rfl
        | ⟨4, _⟩ => exact fun _ => rfl
      · show 2 + 0 = c.val % 83
        omega
      · exact (sigm_apply _ _ _ _).trans (congrArg Ideal.logistic
          (slice4_apply x b ⟨c.val / 83, ha⟩ 0 h w _ rfl))
    · -- channels 3 … 82: the softmax piece
      have h4 : 3 ≤ c.val % 83 := by omega
      rw [Cert.Spec.chan_of_three_le _ _ h4]
      refine (concatenate_apply_piece 2 ([⟨S16x5x2x76x76, sig01 x⟩, ⟨S16x5x1x76x76, sig4 x⟩, ⟨S16x5x80x76x76, smx x⟩] : List ((s : Shape) × (s.Idx → Ideal .f32))) concatenates_S16x5x2x76x76_S16x5x1x76x76_S16x5x80x76x76_S16x5x83x76x76_d2 _ 2 (by simp) S16x5x80x76x76 (smx x) rfl rfl 3 rfl
        (ix5 b (⟨c.val / 83, ha⟩ : Fin 5) (⟨c.val % 83 - 3, by omega⟩ : Fin 80) h w) ?_ ?_).trans ?_
      · intro d
        match d with
        | ⟨0, _⟩ => exact fun _ => rfl
        | ⟨1, _⟩ => exact fun _ => rfl
        | ⟨2, _⟩ => exact fun hne => absurd rfl hne
        | ⟨3, _⟩ => exact fun _ => rfl
        | ⟨4, _⟩ => exact fun _ => rfl
      · show 3 + (c.val % 83 - 3) = c.val % 83
        omega
      · refine (smx_apply x b _ _ h w).trans ?_
        refine congrArg (fun z => Cert.Spec.soft z (⟨c.val % 83 - 3, by omega⟩ : Fin 80)) (funext fun j => ?_)
        exact lg_apply x b ⟨c.val / 83, ha⟩ j h w _ rfl

/-- **The reference's result is the specification's**, index by index. -/
theorem value_apply (x : FVec Ideal S16x425x76x76 .f32) (i : S16x415x76x76.Idx) : whole x i = Cert.Spec.out x i :=
  (congrArg (whole x) (eq_ix4 i)).trans (whole_apply x (i 0) (i 1) (i 2) (i 3))

/-! ## The run -/

/-- On every device, from any memory with zero counters, every weakly fair execution of the reference terminates with
    its result buffer holding the specification's result array of the argument's launch contents, and the argument
    unchanged. -/
theorem run (m : (l : Loc nD τ sig) → Buf (Elt Ideal) l) (ρ : Dev nD → PrngReg) :
    θ_run defs (onTc (τ := τ) (main (F := Ideal))) ⟨m, fun _ => 0, ρ⟩ fun r => ∀ c : Dev nD,
      r.2.mem ((c.tc : Thread nD τ).loc main_v28) = Cert.Spec.out (m ((c.tc : Thread nD τ).loc main_arg0))
      ∧ r.2.mem ((c.tc : Thread nD τ).loc main_arg0) = m ((c.tc : Thread nD τ).loc main_arg0) :=
  (θ_run defs _ _).mono (fun _ h c => ⟨(h c).1.trans (funext fun i => value_apply _ i), (h c).2⟩) (Cert.ReferenceIdeal.ValueP.run (F := Ideal) m ρ)

end Cert.ReferenceIdeal.RefValue

end
-- ==== Proof.KernelPayload.lean ====
/-
  The three values the kernel body stores, read at an index of the block it loaded. The body loads one block
  x₀ : [2, 1, 85, 5776] (two batch entries, one anchor, its 85 channels, the 5776 pixels), drops the unit axis, and stores
    channels 0, 1 of the output block:   σ of input channels 0, 1,
    channel 2:                          σ of input channel 4,
    channels 3 … 82:                    e^(z − M) / Σ e^(z − M) over the 80 logits z (input channels 5 … 84), M their maximum,
  each through a unit axis put back. A maximum or a sum over the channel axis of a [2, 80, 5776] vector, read at (r, p), is
  the fold of max from −∞, or the sum, over the 80 entries (r, k, p); a [2, 5776] vector given a unit channel axis and
  broadcast along it reads at (r, k, p) its entry (r, p).
-/
import proofs.«144834_j5841155523216_2_alg».proof.Proof.Gen.KernelIdeal.Skeleton
import proofs.«144834_j5841155523216_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The layout operations of the body, at an index -/

section Layout
variable {α : Type}

/-- A unit anchor axis dropped: [2, 1, n, 5776] → [2, n, 5776] reads (r, k, p) at (r, 0, k, p). -/
theorem dropUnit_apply (n : Nat) (v : (⟨4, ![2, 1, n, 5776]⟩ : Shape).Idx → α)
    (h : (⟨4, ![2, 1, n, 5776]⟩ : Shape).ShapeCasts ⟨3, ![2, n, 5776]⟩) (r : Fin 2) (k : Fin n) (p : Fin 5776) :
    shapeCast ⟨3, ![2, n, 5776]⟩ v h (ix3 r k p) = v (ix4 r (0 : Fin 1) k p) :=
  shapeCast_apply v h (ix3 r k p) (ix4 r (0 : Fin 1) k p) (by
    rw [Shape.rowMajor_val_four, Shape.rowMajor_val_three]
    show ((r.val * 1 + 0) * n + k.val) * 5776 + p.val = (r.val * n + k.val) * 5776 + p.val
    rw [Nat.mul_one, Nat.add_zero])

/-- The unit anchor axis put back: [2, n, 5776] → [2, 1, n, 5776] reads (r, q, k, p) at (r, k, p). -/
theorem addUnit_apply (n : Nat) (v : (⟨3, ![2, n, 5776]⟩ : Shape).Idx → α)
    (h : (⟨3, ![2, n, 5776]⟩ : Shape).ShapeCasts ⟨4, ![2, 1, n, 5776]⟩) (r : Fin 2) (q : Fin 1) (k : Fin n) (p : Fin 5776) :
    shapeCast ⟨4, ![2, 1, n, 5776]⟩ v h (ix4 r q k p) = v (ix3 r k p) :=
  shapeCast_apply v h (ix4 r q k p) (ix3 r k p) (by
    rw [Shape.rowMajor_val_three, Shape.rowMajor_val_four]
    show (r.val * n + k.val) * 5776 + p.val = ((r.val * 1 + q.val) * n + k.val) * 5776 + p.val
    have hq : q.val = 0 := by have := q.isLt; omega
    rw [hq, Nat.mul_one, Nat.add_zero])

/-- A per-pixel value given a unit channel axis and broadcast along the 80 channels reads, at (r, k, p), its entry (r, p). -/
theorem keepdims_apply (u : (⟨2, ![2, 5776]⟩ : Shape).Idx → α)
    (h1 : (⟨2, ![2, 5776]⟩ : Shape).ShapeCasts ⟨3, ![2, 1, 5776]⟩)
    (h2 : (⟨3, ![2, 1, 5776]⟩ : Shape).Broadcasts ⟨3, ![2, 80, 5776]⟩) (r : Fin 2) (k : Fin 80) (p : Fin 5776) :
    broadcastTo ⟨3, ![2, 80, 5776]⟩ (shapeCast ⟨3, ![2, 1, 5776]⟩ u h1) h2 (ix3 r k p) = u (ix2 r p) :=
  (broadcastTo_apply (shapeCast ⟨3, ![2, 1, 5776]⟩ u h1) h2 (ix3 r k p) (ix3 r (0 : Fin 1) p) (fun a => by
    match a with
    | ⟨0, _⟩ => show r.val = if (2 : Nat) = 1 then 0 else r.val; rw [if_neg (by decide)]
    | ⟨1, _⟩ => show 0 = if (1 : Nat) = 1 then 0 else k.val; rw [if_pos rfl]
    | ⟨2, _⟩ => show p.val = if (5776 : Nat) = 1 then 0 else p.val; rw [if_neg (by decide)])).trans
  (shapeCast_apply u h1 (ix3 r (0 : Fin 1) p) (ix2 r p) (by
    rw [Shape.rowMajor_val_two, Shape.rowMajor_val_three]
    show r.val * 5776 + p.val = (r.val * 1 + 0) * 5776 + p.val
    rw [Nat.mul_one, Nat.add_zero]))

end Layout

/-! ## The two reductions over the channel axis -/

/-- The index (r, p) of a [2, 5776] vector with channel `k` put back is (r, k, p). -/
theorem lift_eq (h : S2x80x5776.Reduces [1] S2x5776) (r : Fin 2) (p : Fin 5776) (k : Fin (S2x80x5776.size 1)) :
    h.lift (ix2 r p) k = ix3 r (⟨k.val, k.isLt⟩ : Fin 80) p := by
  funext c; apply Fin.ext
  fin_cases c <;> rfl

/-- The maximum over the channel axis, at (r, p): the fold of max from the accumulator's value over the 80 channels. -/
theorem channelMax_apply (v : FVec Ideal S2x80x5776 .f32) (acc : BitVec 32) (h : S2x80x5776.Reduces [1] S2x5776)
    (hφ : FKind.Formats .f32) (hacc : acc = FKind.maximumf.neutral .f32 hφ) (r : Fin 2) (p : Fin 5776) :
    multiReduction .maximumf [1] S2x5776 v acc h hφ hacc (ix2 r p)
      = (Finset.univ : Finset (Fin 80)).fold max (Ideal.ofBits .f32 acc) (fun k => v (ix3 r k p)) :=
  (Ideal.multiReduction_maximumf_single v acc h hφ hacc (ix2 r p)).trans
    (congrArg (fun f => Finset.fold max (Ideal.ofBits .f32 acc) f (Finset.univ : Finset (Fin 80)))
      (funext fun k => congrArg v (lift_eq h r p k)))

/-- The sum over the channel axis, at (r, p): the sum over the 80 channels. -/
theorem channelSum_apply (v : FVec Ideal S2x80x5776 .f32) (acc : BitVec 32) (h : S2x80x5776.Reduces [1] S2x5776)
    (hφ : FKind.Formats .f32) (hacc : acc = FKind.add.neutral .f32 hφ) (r : Fin 2) (p : Fin 5776) :
    multiReduction .add [1] S2x5776 v acc h hφ hacc (ix2 r p) = ∑ k : Fin 80, v (ix3 r k p) :=
  (Ideal.multiReduction_add_single v acc h hφ hacc (ix2 r p)).trans
    (Finset.sum_congr rfl fun k _ => congrArg v (lift_eq h r p k))

/-! ## The softmax over the channel axis of a [2, 80, 5776] vector -/

/-- e^(z − M): the logits less their per-pixel maximum, exponentiated — the body's `%11`. -/
abbrev expShift (L : FVec Ideal S2x80x5776 .f32) (h : S2x80x5776.Reduces [1] S2x5776) (hφ : FKind.Formats .f32)
    (hacc : (0xFF800000#32 : BitVec 32) = FKind.maximumf.neutral .f32 hφ) (h1 : S2x5776.ShapeCasts S2x1x5776)
    (h2 : S2x1x5776.Broadcasts S2x80x5776) : FVec Ideal S2x80x5776 .f32 :=
  exp (subf L (broadcastTo S2x80x5776 (shapeCast S2x1x5776 (multiReduction .maximumf [1] S2x5776 L 0xFF800000#32 h hφ hacc) h1) h2))

theorem expShift_apply (L : FVec Ideal S2x80x5776 .f32) (h : S2x80x5776.Reduces [1] S2x5776) (hφ : FKind.Formats .f32)
    (hacc : (0xFF800000#32 : BitVec 32) = FKind.maximumf.neutral .f32 hφ) (h1 : S2x5776.ShapeCasts S2x1x5776)
    (h2 : S2x1x5776.Broadcasts S2x80x5776) (r : Fin 2) (k : Fin 80) (p : Fin 5776) :
    expShift L h hφ hacc h1 h2 (ix3 r k p)
      = Ideal.exp (L (ix3 r k p) - Cert.Spec.top (fun j : Fin 80 => L (ix3 r j p))) :=
  congrArg (fun t => Ideal.exp (L (ix3 r k p) - t))
    ((keepdims_apply (multiReduction .maximumf [1] S2x5776 L 0xFF800000#32 h hφ hacc) h1 h2 r k p).trans
      (channelMax_apply L 0xFF800000#32 h hφ hacc r p))

/-- e^(z − M) / Σ e^(z − M) — the body's `%15`. -/
abbrev softmaxVec (L : FVec Ideal S2x80x5776 .f32) (h : S2x80x5776.Reduces [1] S2x5776) (hφ : FKind.Formats .f32)
    (hacc : (0xFF800000#32 : BitVec 32) = FKind.maximumf.neutral .f32 hφ) (hacc' : (0x00000000#32 : BitVec 32) = FKind.add.neutral .f32 hφ)
    (h1 : S2x5776.ShapeCasts S2x1x5776) (h2 : S2x1x5776.Broadcasts S2x80x5776) : FVec Ideal S2x80x5776 .f32 :=
  divf (expShift L h hφ hacc h1 h2)
    (broadcastTo S2x80x5776 (shapeCast S2x1x5776
      (multiReduction .add [1] S2x5776 (expShift L h hφ hacc h1 h2) 0x00000000#32 h hφ hacc') h1) h2)

theorem softmaxVec_apply (L : FVec Ideal S2x80x5776 .f32) (h : S2x80x5776.Reduces [1] S2x5776) (hφ : FKind.Formats .f32)
    (hacc : (0xFF800000#32 : BitVec 32) = FKind.maximumf.neutral .f32 hφ) (hacc' : (0x00000000#32 : BitVec 32) = FKind.add.neutral .f32 hφ)
    (h1 : S2x5776.ShapeCasts S2x1x5776) (h2 : S2x1x5776.Broadcasts S2x80x5776) (r : Fin 2) (k : Fin 80) (p : Fin 5776) :
    softmaxVec L h hφ hacc hacc' h1 h2 (ix3 r k p) = Cert.Spec.soft (fun j : Fin 80 => L (ix3 r j p)) k := by
  show Ideal.div (expShift L h hφ hacc h1 h2 (ix3 r k p)) _ = _
  unfold Cert.Spec.soft
  rw [expShift_apply]
  refine congrArg (Ideal.div _) ?_
  refine (keepdims_apply _ h1 h2 r k p).trans ?_
  refine (channelSum_apply _ _ h hφ hacc' r p).trans ?_
  exact Finset.sum_congr rfl fun j _ => expShift_apply L h hφ hacc h1 h2 r j p

/-! ## The payloads -/

variable (x0 : Vec Ideal S2x1x85x5776 .f32)

/-- The loaded block with its unit axis dropped. -/
theorem pay1_apply (r : Fin 2) (j : Fin 85) (p : Fin 5776) : k0_pay1 x0 (ix3 r j p) = x0 (ix4 r (0 : Fin 1) j p) :=
  dropUnit_apply 85 x0 _ r j p

/-- Output channels 0 and 1: σ of input channels 0 and 1. -/
theorem pay2_apply (r : Fin 2) (q : Fin 1) (k : Fin 2) (p : Fin 5776) :
    k0_pay2 x0 (ix4 r q k p) = Ideal.logistic (x0 (ix4 r (0 : Fin 1) (⟨k.val, by have := k.isLt; omega⟩ : Fin 85) p)) := by
  unfold k0_pay2
  refine (addUnit_apply 2 _ _ r q k p).trans ?_
  refine congrArg Ideal.logistic ?_
  refine (slice3_axis1_apply 0 (k0_pay1 x0) _ r k p (⟨k.val, by have := k.isLt; omega⟩ : Fin 85) (by simp)).trans ?_
  exact pay1_apply x0 r _ p

/-- Output channel 2: σ of input channel 4. -/
theorem pay3_apply (r : Fin 2) (q : Fin 1) (k : Fin 1) (p : Fin 5776) :
    k0_pay3 x0 (ix4 r q k p) = Ideal.logistic (x0 (ix4 r (0 : Fin 1) (⟨4, by omega⟩ : Fin 85) p)) := by
  unfold k0_pay3
  refine (addUnit_apply 1 _ _ r q k p).trans ?_
  refine congrArg Ideal.logistic ?_
  refine (slice3_axis1_apply 4 (k0_pay1 x0) _ r k p (⟨4, by omega⟩ : Fin 85) (by have := k.isLt; show 4 = 4 + k.val; omega)).trans ?_
  exact pay1_apply x0 r _ p

/-- The logits the body cuts out of the block: input channels 5 … 84. -/
theorem logits_apply (hs : S2x85x5776.Slices ![0, 5, 0] S2x80x5776) (r : Fin 2) (j : Fin 80) (p : Fin 5776) :
    extractStridedSlice S2x80x5776 ![0, 5, 0] (k0_pay1 x0) hs (ix3 r j p)
      = x0 (ix4 r (0 : Fin 1) (⟨5 + j.val, by have := j.isLt; omega⟩ : Fin 85) p) :=
  (slice3_axis1_apply 5 (k0_pay1 x0) hs r j p (⟨5 + j.val, by have := j.isLt; omega⟩ : Fin 85) rfl).trans
    (pay1_apply x0 r _ p)

/-- Output channels 3 … 82: the softmax of the 80 logits. -/
theorem pay4_apply (r : Fin 2) (q : Fin 1) (k : Fin 80) (p : Fin 5776) :
    k0_pay4 x0 (ix4 r q k p)
      = Cert.Spec.soft (fun j : Fin 80 => x0 (ix4 r (0 : Fin 1) (⟨5 + j.val, by have := j.isLt; omega⟩ : Fin 85) p)) k := by
  unfold k0_pay4
  refine (addUnit_apply 80 _ _ r q k p).trans ?_
  refine (softmaxVec_apply _ _ _ _ _ _ _ r k p).trans ?_
  exact congrArg (fun z => Cert.Spec.soft z k) (funext fun j => logits_apply x0 _ r j p)

end Cert.KernelIdeal.Payload

end
-- ==== Proof.KernelBlock.lean ====
/-
  What the kernel body leaves in the output block. It stores three pieces into the [2, 1, 83, 5776] block, at channel offsets
  0 (two channels), 2 (one channel) and 3 (eighty channels); the pieces tile the block, and each is the restriction of ONE
  function of the block index: at (r, 0, k, p) the output k of the anchor whose 85 inputs are the loaded block's (r, 0, ·, p).
  A piece's local index (r, q, k, p) sits at (r, 0, o + k, p) of the block, o the piece's channel offset.
-/
import proofs.«144834_j5841155523216_2_alg».proof.Proof.Gen.KernelIdeal.Frame
import proofs.«144834_j5841155523216_2_alg».proof.Proof.KernelPayload
import Idealize.ShloMosaic.Lib.Pipeline.Value
import Idealize.ShloMosaic.Lib.Tactic

noncomputable section

namespace Cert.KernelIdeal.Block

open Cert.KernelIdeal Cert.KernelIdeal.Gen Idealize.ShloMosaic Idealize.ShloMosaic.TcCoe Idealize.ShloMosaic.Tactic
open Idealize.ShloMosaic.ValueIdx Idealize.SL.Sem

theorem hz : (![0, 0, 0, 0] : Fin 4 → Nat) = fun _ => 0 := funext fun a => by fin_cases a <;> rfl

/-- Where a stored piece sits in the block: local (r, q, k, p) of the piece at channel offset `o` is (r, 0, o + k, p). -/
theorem emb_eq (o n : Nat)
    (inb : ∀ a, (![0, 0, o, 0] : Fin 4 → Nat) a + (![2, 1, n, 5776] : Fin 4 → Nat) a ≤ S2x1x83x5776.size a)
    (r : Fin 2) (q : Fin 1) (k : Fin n) (p : Fin 5776) (k' : Fin 83) (hk : k'.val = o + k.val) :
    (Rect.unit (s := S2x1x83x5776) ![0, 0, o, 0] ![2, 1, n, 5776] inb).emb (ix4 r q k p) = ix4 r (0 : Fin 1) k' p := by
  funext a; apply Fin.ext
  match a with
  | ⟨0, _⟩ => show 0 + 1 * r.val = r.val; omega
  | ⟨1, _⟩ => show 0 + 1 * q.val = 0; have := q.isLt; omega
  | ⟨2, _⟩ => show o + 1 * k.val = k'.val; omega
  | ⟨3, _⟩ => show 0 + 1 * p.val = p.val; omega

variable (x0 : Vec Ideal S2x1x85x5776 .f32)

/-- The piece at channel offset 0: outputs 0 and 1. -/
theorem piece_sigmoid01
    (inb : ∀ a, (![0, 0, 0, 0] : Fin 4 → Nat) a + (![2, 1, 2, 5776] : Fin 4 → Nat) a ≤ S2x1x83x5776.size a)
    (x : (⟨4, ![2, 1, 2, 5776]⟩ : Shape).Idx) :
    k0_pay2 x0 x = Cert.Spec.block x0 ((Rect.unit (s := S2x1x83x5776) ![0, 0, 0, 0] ![2, 1, 2, 5776] inb).emb x) := by
  obtain ⟨r, q, k, p, rfl⟩ : ∃ (r : Fin 2) (q : Fin 1) (k : Fin 2) (p : Fin 5776), x = ix4 r q k p :=
    ⟨x 0, x 1, x 2, x 3, eq_ix4 x⟩
  rw [emb_eq 0 2 inb r q k p ⟨k.val, by have := k.isLt; omega⟩ (by simp)]
  refine (Payload.pay2_apply x0 r q k p).trans ?_
  exact (Cert.Spec.chan_of_lt_two (fun j : Fin 85 => x0 (ix4 r (0 : Fin 1) j p)) ⟨k.val, by have := k.isLt; omega⟩ k.isLt).symm

/-- The piece at channel offset 2: output 2. -/
theorem piece_sigmoid4
    (inb : ∀ a, (![0, 0, 2, 0] : Fin 4 → Nat) a + (![2, 1, 1, 5776] : Fin 4 → Nat) a ≤ S2x1x83x5776.size a)
    (x : (⟨4, ![2, 1, 1, 5776]⟩ : Shape).Idx) :
    k0_pay3 x0 x = Cert.Spec.block x0 ((Rect.unit (s := S2x1x83x5776) ![0, 0, 2, 0] ![2, 1, 1, 5776] inb).emb x) := by
  obtain ⟨r, q, k, p, rfl⟩ : ∃ (r : Fin 2) (q : Fin 1) (k : Fin 1) (p : Fin 5776), x = ix4 r q k p :=
    ⟨x 0, x 1, x 2, x 3, eq_ix4 x⟩
  rw [emb_eq 2 1 inb r q k p ⟨2, by omega⟩ (by have := k.isLt; show 2 = 2 + k.val; omega)]
  refine (Payload.pay3_apply x0 r q k p).trans ?_
  exact (Cert.Spec.chan_of_eq_two (fun j : Fin 85 => x0 (ix4 r (0 : Fin 1) j p)) ⟨2, by omega⟩ rfl).symm

/-- The piece at channel offset 3: outputs 3 … 82, the softmax. -/
theorem piece_softmax
    (inb : ∀ a, (![0, 0, 3, 0] : Fin 4 → Nat) a + (![2, 1, 80, 5776] : Fin 4 → Nat) a ≤ S2x1x83x5776.size a)
    (x : (⟨4, ![2, 1, 80, 5776]⟩ : Shape).Idx) :
    k0_pay4 x0 x = Cert.Spec.block x0 ((Rect.unit (s := S2x1x83x5776) ![0, 0, 3, 0] ![2, 1, 80, 5776] inb).emb x) := by
  obtain ⟨r, q, k, p, rfl⟩ : ∃ (r : Fin 2) (q : Fin 1) (k : Fin 80) (p : Fin 5776), x = ix4 r q k p :=
    ⟨x 0, x 1, x 2, x 3, eq_ix4 x⟩
  rw [emb_eq 3 80 inb r q k p ⟨3 + k.val, by have := k.isLt; omega⟩ rfl]
  refine (Payload.pay4_apply x0 r q k p).trans ?_
  show _ = Cert.Spec.chan (fun j : Fin 85 => x0 (ix4 r (0 : Fin 1) j p)) ⟨3 + k.val, by have := k.isLt; omega⟩
  rw [Cert.Spec.chan_of_three_le _ _ (show 3 ≤ 3 + k.val by omega)]
  exact congrArg (Cert.Spec.soft _) (Fin.ext (by show k.val = 3 + k.val - 3; omega))

/-- The block the body leaves, whatever the point and the staging buffers: `Spec.block` of the block it loaded. -/
theorem out_eq (c : Dev nD) (i : grid0.Coords) (a2 : Memref sig .tc .vmem S2x1x85x5776 .f32) (h2 : a2.IsWhole)
    (a3 : Memref sig .tc .vmem S2x1x83x5776 .f32) (h3 : a3.IsWhole) :
    out0_A_1 (F := Ideal) c i a2 h2 a3 h3 x0 = Cert.Spec.block x0 := by
  unfold out0_A_1
  rw [View.read_writes_junk_eq_canon]
  funext y
  refine View.canon_apply_of_pieces (Cert.Spec.block x0) _ ?_ y (cover0_A_1 c i a2 h2 a3 h3 x0 y)
  unfold kernelRun0_A
  dsimp only
  have hx : View.readAt (Elt Ideal) a2.view
      (Rect.unit (s := S2x1x85x5776) ![0, 0, 0, 0] ![2, 1, 85, 5776] inb_S2x1x85x5776_S2x1x85x5776_0_0_0_0).toLoadRect (h2.unread x0) = x0 := by
    simp only [View.readAt_eq_ld, h2.read_unread, View.ld_unit_zero (S := S2x1x85x5776) hz]
  rw [hx]
  intro pc hpc x
  simp only [List.mem_cons, List.mem_nil_iff, or_false] at hpc
  rcases hpc with rfl | rfl | rfl
  · exact piece_softmax x0 inb_S2x1x83x5776_S2x1x80x5776_0_0_3_0 x
  · exact piece_sigmoid4 x0 inb_S2x1x83x5776_S2x1x1x5776_0_0_2_0 x
  · exact piece_sigmoid01 x0 inb_S2x1x83x5776_S2x1x2x5776_0_0_0_0 x

end Cert.KernelIdeal.Block

end
-- ==== Proof.KernelArray.lean ====
/-
  The kernel's output array [16, 5, 83, 5776] after the grid has run. Point t of the 8 × 5 grid works on batch entries
  2·(t div 5), 2·(t div 5) + 1 and anchor t mod 5: its input block is those entries' 85 channels of that anchor, its output
  block their 83 outputs. The 40 output blocks tile the array, so the array ends as ONE function of the array the region
  found in its input window: at (b, a, k, p) the output k of the anchor whose inputs are (b, a, ·, p). That input array is
  the argument [16, 425, 76, 76] reshaped to [16, 5, 85, 5776].
-/
import proofs.«144834_j5841155523216_2_alg».proof.Proof.Gen.KernelIdeal.Frame
import proofs.«144834_j5841155523216_2_alg».proof.Proof.KernelBlock
import Idealize.ShloMosaic.Lib.Pipeline.Value
import Idealize.ShloMosaic.Lib.StableHlo.Run

noncomputable section

namespace Cert.KernelIdeal.Array

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The two index maps over the grid: both windows sit at block (batch pair, anchor, 0, 0), the same pair and anchor. -/
theorem idx_facts : ∀ t : Fin cfg0.N,
    win0_0.index t (0 : Fin 4) = win0_1.index t (0 : Fin 4) ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 7 ∧ win0_1.index t (1 : Fin 4) ≤ 4 :=
  (by decide +kernel : ∀ t : Fin grid0.N, _)

/-- Every (batch pair, anchor) is some point's. -/
theorem idx_onto : ∀ (q0 : Fin 8) (q1 : Fin 5), ∃ t : Fin cfg0.N, win0_1.index t = ![q0.val, q1.val, 0, 0] :=
  (by decide +kernel : ∀ (q0 : Fin 8) (q1 : Fin 5), ∃ t : Fin grid0.N, win0_1.index t = ![q0.val, q1.val, 0, 0])

/-- One block against the whole arrays: if the block `x0` holds entries (2·i0 + r, i1, ·, ·) of `Y`, then `Spec.block x0` at
    (r, q, k, p) is `Spec.flat Y` at (2·i0 + r, i1, k, p). -/
theorem block_eq_flat (Y : (⟨4, ![16, 5, 85, 5776]⟩ : Shape).Idx → EReal) (x0 : (⟨4, ![2, 1, 85, 5776]⟩ : Shape).Idx → EReal)
    (B : Fin 2 → Fin 16) (A : Fin 5)
    (hx : ∀ (r : Fin 2) (ch : Fin 85) (p : Fin 5776), x0 (ix4 r (0 : Fin 1) ch p) = Y (ix4 (B r) A ch p))
    (r : Fin 2) (q : Fin 1) (k : Fin 83) (p : Fin 5776) :
    Cert.Spec.block x0 (ix4 r q k p) = Cert.Spec.flat Y (ix4 (B r) A k p) := by
  obtain rfl : q = 0 := Subsingleton.elim _ _
  show Cert.Spec.chan (fun ch : Fin 85 => x0 (ix4 r (0 : Fin 1) ch p)) k = Cert.Spec.chan (fun ch : Fin 85 => Y (ix4 (B r) A ch p)) k
  exact congrArg (fun z => Cert.Spec.chan z k) (funext fun ch => hx r ch p)

/-- The array the region finds in its input window: the argument, reshaped. -/
theorem V_input (c : Dev nD) :
    (V m c main_v0 : S16x5x85x5776.Idx → Elt Ideal .f32)
      = shapeCast S16x5x85x5776 (m ((c : Thread nD τ).loc main_arg0)) shapeCasts_S16x425x76x76_S16x5x85x5776 := by
  show StableHlo.after hostOps0 (fun b => m (c, b)) (Proc.devRef .tc main_v0) = _
  after_results
  rfl

/-- WHAT POINT `t` WRITES BACK is block `t` of `Spec.flat` of the input array. -/
theorem flushed_eq (c : Dev nD) (t : Fin cfg0.N) :
    (dats m 0 c).flushed 1 t = ((cfg0.win 1).blk t).view.read (Elt Ideal) (Cert.Spec.flat (V m c main_v0)) := by
  show (cfg0.win 1).cut (grid0.coords t) ((dats m 0 c).after 1 t) = _
  rw [after0_1]
  unfold outsAt0
  rw [Block.out_eq]
  obtain ⟨e0, e1, e2, e3, e4, e5, e6, e7⟩ := idx_facts t
  funext j
  obtain ⟨r, q, k, p, rfl⟩ : ∃ (r : Fin 2) (q : Fin 1) (k : Fin 83) (p : Fin 5776), j = ix4 r q k p :=
    ⟨j 0, j 1, j 2, j 3, eq_ix4 j⟩
  have hB : ∀ r : Fin 2, win0_1.index t (0 : Fin 4) * 2 + r.val < 16 := fun r => by have := r.isLt; omega
  have hA : win0_1.index t (1 : Fin 4) < 5 := by omega
  have hemb : ((cfg0.win 1).blk t).view.emb (ix4 r q k p)
      = ix4 (⟨win0_1.index t (0 : Fin 4) * 2 + r.val, hB r⟩ : Fin 16) (⟨win0_1.index t (1 : Fin 4), hA⟩ : Fin 5) k p := by
    funext a; apply Fin.ext
    match a with
    | ⟨0, _⟩ => show win0_1.index t (0 : Fin 4) * 2 + 1 * r.val = win0_1.index t (0 : Fin 4) * 2 + r.val; omega
    | ⟨1, _⟩ => show win0_1.index t (1 : Fin 4) * 1 + 1 * q.val = win0_1.index t (1 : Fin 4); have := q.isLt; omega
    | ⟨2, _⟩ => show win0_1.index t (2 : Fin 4) * 83 + 1 * k.val = k.val; omega
    | ⟨3, _⟩ => show win0_1.index t (3 : Fin 4) * 5776 + 1 * p.val = p.val; omega
  show Cert.Spec.block (iblk m c 0 t) (ix4 r q k p) = Cert.Spec.flat (V m c main_v0) (((cfg0.win 1).blk t).view.emb (ix4 r q k p))
  rw [hemb]
  refine block_eq_flat (V m c main_v0) (iblk m c 0 t)
    (fun r => (⟨win0_1.index t (0 : Fin 4) * 2 + r.val, hB r⟩ : Fin 16)) (⟨win0_1.index t (1 : Fin 4), hA⟩ : Fin 5) (fun r' ch p' => ?_) r q k p
  show V m c main_v0 (((cfg0.win 0).blk t).view.emb (ix4 r' (0 : Fin 1) ch p')) = _
  refine congrArg (V m c main_v0) ?_
  funext a; apply Fin.ext
  match a with
  | ⟨0, _⟩ => show win0_0.index t (0 : Fin 4) * 2 + 1 * r'.val = win0_1.index t (0 : Fin 4) * 2 + r'.val; omega
  | ⟨1, _⟩ => show win0_0.index t (1 : Fin 4) * 1 + 1 * 0 = win0_1.index t (1 : Fin 4); omega
  | ⟨2, _⟩ => show win0_0.index t (2 : Fin 4) * 85 + 1 * ch.val = ch.val; omega
  | ⟨3, _⟩ => show win0_0.index t (3 : Fin 4) * 5776 + 1 * p'.val = p'.val; omega

/-- An index of the array is in point `t`'s block iff each coordinate is in the block's range on its axis. -/
theorem mem_blk (t : Fin cfg0.N) (i : S16x5x83x5776.Idx) :
    i ∈ ((cfg0.win 1).blk t).view.set ↔ ∀ a : Fin 4, win0_1.index t a * S2x1x83x5776.size a ≤ (i a).val
      ∧ (i a).val < win0_1.index t a * S2x1x83x5776.size a + S2x1x83x5776.size a := by
  show i ∈ ((View.whole main_v1).slice (win0_1.rect t)).set ↔ _
  rw [View.set_slice_whole, Rect.mem_set_unit]
  exact Iff.rfl

/-- THE ARRAY after the run: `Spec.flat` of the input array — every index is in the block of the point at its batch pair and anchor. -/
theorem final (c : Dev nD) : (dats m 0 c).arrAt 1 cfg0.N = Cert.Spec.flat (V m c main_v0) :=
  (dats m 0 c).arrAt_eq_of_cover 1 (Cert.Spec.flat (V m c main_v0)) (fun t _ => flushed_eq m c t) fun i => by
    have h0 : (i 0).val < 16 := (i 0).isLt
    have h1 : (i 1).val < 5 := (i 1).isLt
    have h2 : (i 2).val < 83 := (i 2).isLt
    have h3 : (i 3).val < 5776 := (i 3).isLt
    obtain ⟨t, ht⟩ := idx_onto ⟨(i 0).val / 2, by omega⟩ ⟨(i 1).val, h1⟩
    have q0 : win0_1.index t (0 : Fin 4) = (i 0).val / 2 := congrFun ht 0
    have q1 : win0_1.index t (1 : Fin 4) = (i 1).val := congrFun ht 1
    have q2 : win0_1.index t (2 : Fin 4) = 0 := congrFun ht 2
    have q3 : win0_1.index t (3 : Fin 4) = 0 := congrFun ht 3
    refine ⟨t, flush0_1 t, ?_⟩
    rw [mem_blk]
    intro a
    match a with
    | ⟨0, _⟩ => show win0_1.index t (0 : Fin 4) * 2 ≤ (i 0).val ∧ (i 0).val < win0_1.index t (0 : Fin 4) * 2 + 2; omega
    | ⟨1, _⟩ => show win0_1.index t (1 : Fin 4) * 1 ≤ (i 1).val ∧ (i 1).val < win0_1.index t (1 : Fin 4) * 1 + 1; omega
    | ⟨2, _⟩ => show win0_1.index t (2 : Fin 4) * 83 ≤ (i 2).val ∧ (i 2).val < win0_1.index t (2 : Fin 4) * 83 + 83; omega
    | ⟨3, _⟩ => show win0_1.index t (3 : Fin 4) * 5776 ≤ (i 3).val ∧ (i 3).val < win0_1.index t (3 : Fin 4) * 5776 + 5776; omega

end Cert.KernelIdeal.Array

end
-- ==== Proof.KernelRun.lean ====
/-
  The kernel program's run, read as a value. @main reshapes the argument [16, 425, 76, 76] to [16, 5, 85, 5776] (channel
  85·a + j becomes channel j of anchor a; pixel (h, w) becomes flat pixel 76·h + w), runs the grid, and reshapes the output
  array [16, 5, 83, 5776] to the result [16, 415, 76, 76] (output k of anchor a becomes channel 83·a + k). Both reshapes keep
  the row-major position, so the result at (b, c, h, w) is output c mod 83 of anchor c div 83 at pixel (h, w), over the
  argument's channels 85·(c div 83) + j: the specification's `out`.
-/
import proofs.«144834_j5841155523216_2_alg».proof.Proof.Gen.KernelIdeal.Frame
import proofs.«144834_j5841155523216_2_alg».proof.Proof.KernelArray
import Idealize.ShloMosaic.Lib.Pipeline.Value
import Idealize.ShloMosaic.Lib.StableHlo.Run

noncomputable section

namespace Cert.KernelIdeal.Run

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

/-- The two reshapes around the per-anchor function: the flat-pixel form between them is the result array's `out`. -/
theorem reshape_flat_reshape (x : S16x425x76x76.Idx → Elt Ideal .f32) (h1 : S16x425x76x76.ShapeCasts S16x5x85x5776)
    (h2 : S16x5x83x5776.ShapeCasts S16x415x76x76) :
    shapeCast S16x415x76x76 (Cert.Spec.flat (shapeCast S16x5x85x5776 x h1)) h2 = Cert.Spec.out x := by
  funext i
  obtain ⟨b, c, h, w, rfl⟩ : ∃ (b : Fin 16) (c : Fin 415) (h w : Fin 76), i = ix4 b c h w := ⟨i 0, i 1, i 2, i 3, eq_ix4 i⟩
  have hb := b.isLt
  have hc := c.isLt
  have hh := h.isLt
  have hw := w.isLt
  refine (shapeCast_apply (Cert.Spec.flat (shapeCast S16x5x85x5776 x h1)) h2 (ix4 b c h w)
    (ix4 b (⟨c.val / 83, by omega⟩ : Fin 5) (⟨c.val % 83, Nat.mod_lt _ (by decide)⟩ : Fin 83) (⟨h.val * 76 + w.val, by omega⟩ : Fin 5776)) ?_).trans ?_
  · rw [Shape.rowMajor_val_four, Shape.rowMajor_val_four]
    show ((b.val * 5 + c.val / 83) * 83 + c.val % 83) * 5776 + (h.val * 76 + w.val) = ((b.val * 415 + c.val) * 76 + h.val) * 76 + w.val
    omega
  · show Cert.Spec.chan (fun j : Fin 85 => shapeCast S16x5x85x5776 x h1
          (ix4 b (⟨c.val / 83, by omega⟩ : Fin 5) j (⟨h.val * 76 + w.val, by omega⟩ : Fin 5776))) ⟨c.val % 83, Nat.mod_lt _ (by decide)⟩
        = Cert.Spec.chan (fun j : Fin 85 => x (ix4 b (⟨c.val / 83 * 85 + j.val, by have := j.isLt; omega⟩ : Fin 425) h w)) ⟨c.val % 83, Nat.mod_lt _ (by decide)⟩
    refine congrArg (fun z => Cert.Spec.chan z ⟨c.val % 83, Nat.mod_lt _ (by decide)⟩) (funext fun j => ?_)
    have hj := j.isLt
    refine shapeCast_apply x h1 _ (ix4 b (⟨c.val / 83 * 85 + j.val, by omega⟩ : Fin 425) h w) ?_
    rw [Shape.rowMajor_val_four, Shape.rowMajor_val_four]
    show ((b.val * 425 + (c.val / 83 * 85 + j.val)) * 76 + h.val) * 76 + w.val = ((b.val * 5 + c.val / 83) * 85 + j.val) * 5776 + (h.val * 76 + w.val)
    omega

variable (m : (ℓ : Loc nD τ sig) → Buf (Elt Ideal) ℓ) (ρ : Dev nD → PrngReg)

/-- What the reshape after the region leaves in the result buffer: the output array, reshaped. -/
theorem tail_eq (c : Dev nD) :
    Pipeline.afterTail₀ cfgs (dats m) 0 (V0 m) [hostOps1] c main_v2
      = shapeCast S16x415x76x76 (Cert.Spec.flat (V m c main_v0)) shapeCasts_S16x5x83x5776_S16x415x76x76 := by
  unfold Pipeline.afterTail₀
  show StableHlo.after hostOps1 _ (Proc.devRef .tc main_v2) = _
  after_results
  refine congrArg (fun v : S16x5x83x5776.Idx → Elt Ideal .f32 => shapeCast S16x415x76x76 v shapeCasts_S16x5x83x5776_S16x415x76x76) ?_
  exact (Pipeline.withArrays_arr spec0 launch0.win.arr_inj c _ _ 1).trans (Array.final m c)

/-- THE RUN: every weakly fair execution terminates with the result array at `out` of the argument, the argument unchanged. -/
theorem run : θ_run defs (onTc (τ := τ) (main (F := Ideal))) ⟨m, fun _ => 0, ρ⟩ fun r => ∀ c : Dev nD,
      r.2.mem ((c.tc : Thread nD τ).loc main_v2) = Cert.Spec.out (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans
        ((tail_eq m c).trans (by rw [Array.V_input m c]; exact reshape_flat_reshape _ _ _)),
      ((h c).2 main_arg0 (Pipeline.mem_restRefs_of main_arg0 (by decide) (by decide))).trans (W_main_arg0 m (dats m) c)⟩)
    (run_main m ρ)

end Cert.KernelIdeal.Run

end
-- ==== Proof.lean ====
/-
  The certificate's claims, assembled. The kernel and its jnp reference compute one function of the argument
  x : f32[16, 425, 76, 76] on the extended reals: the 425 channels are 5 anchors of 85, and of an anchor's channels z₀ … z₈₄ at a
  pixel the result keeps σ(z₀), σ(z₁), σ(z₄) and the softmax of the 80 logits z₅ … z₈₄, 83 outputs per anchor, 415 channels in
  all (Proof/Spec.lean: `Cert.Spec.out`). σ(z) = 1 / (1 + e^(−z)) is the kernel's one logistic operation and the reference's
  negate, exponential, add, divide — one function of an extended real by definition. The softmax is e^(z − M) / Σ e^(z − M) with M
  the maximum of the logits from −∞ on both sides; the reference takes one more maximum with −∞, which changes nothing; the two
  sums run over the same 80 terms. No step uses that the inputs are finite.
    The kernel side (Proof/KernelPayload.lean, KernelBlock.lean, KernelArray.lean, KernelRun.lean): the body's three stores at
  an index; the block they tile; the output array from its 40 blocks; the two reshapes around the grid.
    The reference side (Proof/ReferenceRun.lean, ReferenceValue.lean): its 36 operations run, and their composed term at an index.
  The frames of the two kernel programs are the generated frame certificates; the reference's frame is its run with the result
  dropped; the idealization rewrote nothing, so `preserves` is `True`.
-/
import proofs.«144834_j5841155523216_2_alg».proof.Defs
import proofs.«144834_j5841155523216_2_alg».proof.Proof.Gen.Kernel
import proofs.«144834_j5841155523216_2_alg».proof.Proof.Gen.Kernel.Skeleton
import proofs.«144834_j5841155523216_2_alg».proof.Proof.Gen.Kernel.Launch
import proofs.«144834_j5841155523216_2_alg».proof.Proof.Gen.Kernel.Points
import proofs.«144834_j5841155523216_2_alg».proof.Proof.Gen.Kernel.Frame
import proofs.«144834_j5841155523216_2_alg».proof.Proof.Gen.KernelIdeal
import proofs.«144834_j5841155523216_2_alg».proof.Proof.Gen.KernelIdeal.Skeleton
import proofs.«144834_j5841155523216_2_alg».proof.Proof.Gen.KernelIdeal.Launch
import proofs.«144834_j5841155523216_2_alg».proof.Proof.Gen.KernelIdeal.Points
import proofs.«144834_j5841155523216_2_alg».proof.Proof.Gen.KernelIdeal.Frame
import proofs.«144834_j5841155523216_2_alg».proof.Proof.Gen.ReferenceIdeal
import proofs.«144834_j5841155523216_2_alg».proof.Proof.Gen.Pre_finite_inputs
import proofs.«144834_j5841155523216_2_alg».proof.Proof.ReferenceRun
import proofs.«144834_j5841155523216_2_alg».proof.Proof.ReferenceValue
import proofs.«144834_j5841155523216_2_alg».proof.Proof.KernelRun
import Idealize.ShloMosaic.Adequacy
import Idealize.ShloMosaic.Init

noncomputable section

namespace Cert.Proof

open Idealize.ShloMosaic Idealize.SL.Sem

/-- The kernel program as printed runs, its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, its argument unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the argument, both idealized programs end with the result array at `Cert.Spec.out` of it. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)),
    Cert.KernelIdeal.Run.run m ρ, ?_⟩
  refine (θ_run Cert.ReferenceIdeal.defs _ _).mono (fun _ h c => ⟨(h c).1.trans ?_, (h c).2⟩)
    (Cert.ReferenceIdeal.RefValue.run m' ρ')
  exact congrArg Cert.Spec.out (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
